-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩

abbrev nBuf : Space → Nat
  | .hbm => 46
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S1x64, .f32⟩
  | .hbm, ⟨28, _⟩ => ⟨S1x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S1x64, .f32⟩
  | .hbm, ⟨44, _⟩ => ⟨S1x64, .f32⟩
  | .hbm, ⟨45, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x64 : Shape := ⟨2, ![100000, 64]⟩
abbrev S1x64 : Shape := ⟨2, ![1, 64]⟩
abbrev S1600000x64 : Shape := ⟨2, ![1600000, 64]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x128, .f32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S100000x64, .f32⟩
  | .hbm, ⟨32, _⟩ => ⟨S_, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S_, .f32⟩
  | .hbm, ⟨41, _⟩ => ⟨S100000x64, .f32⟩
  | .hbm, ⟨42, _⟩ => ⟨S100000x64, .i1⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S_, .f32⟩
  | .hbm, ⟨74, _⟩ => ⟨S100000x64, .f32⟩
  | .hbm, ⟨75, _⟩ => ⟨S100000x64, .i1⟩
  | .hbm, ⟨76, _⟩ => ⟨S_, .f32⟩
  | .hbm, ⟨77, _⟩ => ⟨S100000x64, .f32⟩
  | .hbm, ⟨78, _⟩ => ⟨S100000x64, .f32⟩
  | .hbm, ⟨79, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_call1_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v24 : Ref sig .tc := ⟨.hbm, 46, rfl⟩
abbrev main_c_2 : Ref sig .tc := ⟨.hbm, 47, rfl⟩
abbrev main_v25 : Ref sig .tc := ⟨.hbm, 48, rfl⟩
abbrev main_v26 : Ref sig .tc := ⟨.hbm, 49, rfl⟩
abbrev main_c_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call2_cst : Ref sig .tc := ⟨.hbm, 65, rfl⟩
abbrev main_call2_v0 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_5 : Ref sig .tc := ⟨.hbm, 72, rfl⟩
abbrev main_call3_cst : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_v45 : Ref sig .tc := ⟨.hbm, 79, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The kernel program's run, with every buffer's final contents named.

  @main is four segments: the host operations before the first launch, the first launch, the host operations
  between the launches, the second launch.  The contents of every buffer at each of the boundaries are a fold
  from the launch memory: a host stretch applies its operations; a launch leaves each of its arrays at what its
  write-backs leave and every other buffer as it was.  Every weakly fair execution of @main terminates, nothing
  faulting, in a state where each buffer that lives for the whole program holds the last boundary's contents.
  The frame (the arguments end as launched) and the value (what the result buffer ends holding) are both read
  off this one statement, one buffer at a time.
-/
import proofs.«179363_j20005957664840_1_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- Every weakly fair execution of @main terminates, nothing faulting, with every unscoped buffer of every core
    at the last boundary's contents: the launch theorem for a program of several launches over the four
    segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

end Cert.KernelIdeal.KValue

end
-- ==== Proof.LayerSpec.lean ====
/-
  One layer of the network, as a function of whole arrays at the extended reals.

  A layer takes the node features h [N, D], the aggregated neighbour features agg [N, D] (the sum, over the
  edges that end in a node, of the features of the edges' sources), two weight matrices Wa [D, 64] and
  Wb [64, 64] and two bias vectors ba, bb [64].  Row r of its result depends on row r of h + agg only:

      hidden_k = max (sum_j (h + agg)(r, j) * Wa (j, k) + ba k) 0            the first affine map, rectified
      pre_c    = sum_k hidden_k * Wb (k, c) + bb c                           the second affine map
      out(r,c) = pre_c if 0 < pre_c, else slope * pre_c                      the leaky rectifier

  with `slope` the single-precision number nearest 0.01, kept as its bit pattern: it is the same word on
  both sides of every equation here and is never evaluated.

  The leaky rectifier has two spellings: "x if x > 0 else slope * x" and "x if x >= 0 else slope * x".
  They differ only at x = 0, where the first gives slope * 0 = 0 and the second gives 0 (`leaky_ge`).
-/
import Idealize.ShloMosaic.Lib.ValueIdx
import Idealize.ShloMosaic.PureOps.Ideal

noncomputable section

namespace Cert.Gin

open Idealize.ShloMosaic Idealize.ShloMosaic.ValueIdx

/-- The negative slope of the leaky rectifier: the single-precision word of 0.01, read at the ideal values. -/
def slope : EReal := Ideal.ofBits .f32 0x3C23D70A#32

/-- The rectified first affine map of one row `z`, at hidden unit `k`. -/
def hidden {D : Nat} (z : Fin D → EReal) (Wa : Fin D → Fin 64 → EReal) (ba : Fin 64 → EReal) (k : Fin 64) : EReal :=
  max ((∑ j : Fin D, z j * Wa j k) + ba k) 0

/-- The second affine map of the rectified hidden row, at output column `c`. -/
def pre {D : Nat} (z : Fin D → EReal) (Wa : Fin D → Fin 64 → EReal) (ba : Fin 64 → EReal)
    (Wb : Fin 64 → Fin 64 → EReal) (bb : Fin 64 → EReal) (c : Fin 64) : EReal :=
  (∑ k : Fin 64, hidden z Wa ba k * Wb k c) + bb c

/-- The leaky rectifier, spelt with the strict comparison. -/
def leaky (x : EReal) : EReal := if 0 < x then x else slope * x

/-- Spelt with the weak comparison it is the same function: the two differ only at zero, where
    `slope * 0 = 0`. -/
theorem leaky_ge (x : EReal) : (if 0 ≤ x then x else slope * x) = leaky x := by
  unfold leaky
  by_cases h : 0 < x
  · rw [if_pos h, if_pos h.le]
  · by_cases h0 : 0 ≤ x
    · have hx : x = 0 := le_antisymm (not_lt.mp h) h0
      rw [if_pos h0, if_neg h, hx, mul_zero]
    · rw [if_neg h0, if_neg h]

/-- One output row of a layer from the row `z` of h + agg. -/
def row {D : Nat} (z : Fin D → EReal) (Wa : Fin D → Fin 64 → EReal) (ba : Fin 64 → EReal)
    (Wb : Fin 64 → Fin 64 → EReal) (bb : Fin 64 → EReal) (c : Fin 64) : EReal :=
  leaky (pre z Wa ba Wb bb c)

/-- A layer on whole arrays: entry (r, c) of the result is `row` of row r of h + agg. -/
def layer {N D : Nat} (h agg : FVec Ideal ⟨2, ![N, D]⟩ .f32) (Wa : FVec Ideal ⟨2, ![D, 64]⟩ .f32)
    (ba : FVec Ideal ⟨1, ![64]⟩ .f32) (Wb : FVec Ideal ⟨2, ![64, 64]⟩ .f32) (bb : FVec Ideal ⟨1, ![64]⟩ .f32) :
    FVec Ideal ⟨2, ![N, 64]⟩ .f32 :=
  fun i => row (fun j => h (ix2 (i 0) j) + agg (ix2 (i 0) j)) (fun j k => Wa (ix2 j k)) (fun k => ba (ix1 k))
    (fun k c => Wb (ix2 k c)) (fun c => bb (ix1 c)) (i 1)

/-- A layer read at (r, c). -/
theorem layer_apply {N D : Nat} (h agg : FVec Ideal ⟨2, ![N, D]⟩ .f32) (Wa : FVec Ideal ⟨2, ![D, 64]⟩ .f32)
    (ba : FVec Ideal ⟨1, ![64]⟩ .f32) (Wb : FVec Ideal ⟨2, ![64, 64]⟩ .f32) (bb : FVec Ideal ⟨1, ![64]⟩ .f32)
    (r : Fin N) (c : Fin 64) :
    layer h agg Wa ba Wb bb (ix2 r c)
      = row (fun j => h (ix2 r j) + agg (ix2 r j)) (fun j k => Wa (ix2 j k)) (fun k => ba (ix1 k))
          (fun k c => Wb (ix2 k c)) (fun c => bb (ix1 c)) c := rfl

end Cert.Gin

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.MlpBlock.lean ====
/-
  A block of rows through one layer's arithmetic, read at an entry.

  The kernel body applies to a block of R rows (R = 5000) the layer's arithmetic on whole vectors: a plain
  matrix product into a zero accumulator plus a bias row broadcast down the rows, the maximum with zero,
  a second such product plus bias, and the select "x if x > 0 else slope * x".  Read at entry (p, q), at
  the ideal values, that is the specification's `Cert.Gin.row` of row p of the block: the products are the
  plain sums over the contraction index, the bias row is read at (0, q), and nothing else happens to a
  number on the way (a change of float format is the identity on extended reals).
-/
import proofs.«179363_j20005957664840_1_alg».proof.Proof.LayerSpec
import proofs.«179363_j20005957664840_1_alg».proof.Proof.LibPlainDot
import proofs.«179363_j20005957664840_1_alg».proof.Proof.LibRows
import Idealize.ShloMosaic.PureOps.Ideal.Laws

noncomputable section

namespace Cert.Gin

open Idealize.ShloMosaic Idealize.ShloMosaic.ValueIdx

/-- A plain product of [R, K] by [K, 64] into the zero accumulator plus a bias row [1, 64] broadcast down
    the rows, read at (p, q): the sum over k of x (p, k) * W (k, q), plus the bias at (0, q). -/
theorem affine_apply {R K : Nat} (x : FVec Ideal ⟨2, ![R, K]⟩ .bf16) (W : FVec Ideal ⟨2, ![K, 64]⟩ .bf16)
    (b : FVec Ideal ⟨2, ![1, 64]⟩ .f32) (hbc : (⟨2, ![1, 64]⟩ : Shape).Broadcasts ⟨2, ![R, 64]⟩) (p : Fin R) (q : Fin 64) :
    addf (matmul (DotDims.plain R K 64) none x W (constant (F := Ideal) ⟨2, ![R, 64]⟩ .f32 0x00000000#32))
        (broadcastTo ⟨2, ![R, 64]⟩ b hbc) (ix2 p q)
      = (∑ k : Fin K, x (ix2 p k) * W (ix2 k q)) + b (ix2 0 q) := by
  rw [addf_apply, Cert.Lib.PlainDot.matmul_plain_zero_apply, Cert.Lib.Rows.broadcastTo_row_apply]

/-- The layer's arithmetic on a block of R rows: `z` the block of h + agg, the weights whole, the biases as rows. -/
def block {R D : Nat} (z : FVec Ideal ⟨2, ![R, D]⟩ .bf16) (Wa : FVec Ideal ⟨2, ![D, 64]⟩ .bf16)
    (ba : FVec Ideal ⟨2, ![1, 64]⟩ .f32) (Wb : FVec Ideal ⟨2, ![64, 64]⟩ .bf16) (bb : FVec Ideal ⟨2, ![1, 64]⟩ .f32)
    (hbc : (⟨2, ![1, 64]⟩ : Shape).Broadcasts ⟨2, ![R, 64]⟩) (hbits : FTy.bf16.bits < FTy.f32.bits) :
    FVec Ideal ⟨2, ![R, 64]⟩ .f32 :=
  have a : FVec Ideal ⟨2, ![R, 64]⟩ .f32 :=
    addf (matmul (DotDims.plain R D 64) none z Wa (constant (F := Ideal) ⟨2, ![R, 64]⟩ .f32 0x00000000#32))
      (broadcastTo ⟨2, ![R, 64]⟩ ba hbc)
  have hid : FVec Ideal ⟨2, ![R, 64]⟩ .bf16 :=
    truncf .bf16 (maximumf a (broadcast ⟨2, ![R, 64]⟩ (Scalar.ofBits (F := Ideal) .f32 0x00000000#32))) hbits
  have b : FVec Ideal ⟨2, ![R, 64]⟩ .f32 :=
    addf (matmul (DotDims.plain R 64 64) none hid Wb (constant (F := Ideal) ⟨2, ![R, 64]⟩ .f32 0x00000000#32))
      (broadcastTo ⟨2, ![R, 64]⟩ bb hbc)
  select (cmpf .ogt b (broadcast ⟨2, ![R, 64]⟩ (Scalar.ofBits (F := Ideal) .f32 0x00000000#32))) b
    (mulf (broadcast ⟨2, ![R, 64]⟩ (Scalar.ofBits (F := Ideal) .f32 0x3C23D70A#32)) b)

/-- The select on the strict comparison with zero is the specification's leaky rectifier. -/
theorem select_gt_eq_leaky (x : EReal) :
    Scalar.select (FloatOps.cmpf (F := Ideal) (φ := .f32) .ogt x (Scalar.ofBits (F := Ideal) .f32 0x00000000#32)) x
        ((Scalar.ofBits (F := Ideal) .f32 0x3C23D70A#32 : EReal) * x)
      = leaky x := by
  have h0 : (Scalar.ofBits (F := Ideal) .f32 0x00000000#32 : EReal) = 0 := Ideal.ofBits_zero_f32
  rw [Ideal.cmpf_def, h0]
  unfold leaky slope Scalar.select Ideal.cmp
  by_cases h : (0 : EReal) < x
  · simp [h]
  · simp [h]

/-- The block read at entry (p, q) is the specification's row function of row p of `z`. -/
theorem block_apply {R D : Nat} (z : FVec Ideal ⟨2, ![R, D]⟩ .bf16) (Wa : FVec Ideal ⟨2, ![D, 64]⟩ .bf16)
    (ba : FVec Ideal ⟨2, ![1, 64]⟩ .f32) (Wb : FVec Ideal ⟨2, ![64, 64]⟩ .bf16) (bb : FVec Ideal ⟨2, ![1, 64]⟩ .f32)
    (hbc : (⟨2, ![1, 64]⟩ : Shape).Broadcasts ⟨2, ![R, 64]⟩) (hbits : FTy.bf16.bits < FTy.f32.bits) (p : Fin R) (q : Fin 64) :
    block z Wa ba Wb bb hbc hbits (ix2 p q)
      = row (fun j => z (ix2 p j)) (fun j k => Wa (ix2 j k)) (fun k => ba (ix2 0 k)) (fun k c => Wb (ix2 k c))
          (fun c => bb (ix2 0 c)) q := by
  unfold block row
  rw [select_apply, mulf_apply, broadcast_apply]
  refine (select_gt_eq_leaky _).trans (congrArg leaky ?_)
  rw [affine_apply]
  unfold pre
  refine congrArg (· + bb (ix2 0 q)) (Finset.sum_congr rfl fun k _ => congrArg (· * Wb (ix2 k q)) ?_)
  rw [truncf_apply, maximumf_apply, broadcast_apply, affine_apply]
  unfold hidden
  exact congrArg (max _) Ideal.ofBits_zero_f32

/-- A layer on whole arrays with the two biases given as rows [1, 64], as the kernel launches take them. -/
def layerRows {N D : Nat} (h agg : FVec Ideal ⟨2, ![N, D]⟩ .f32) (Wa : FVec Ideal ⟨2, ![D, 64]⟩ .f32)
    (ba : FVec Ideal ⟨2, ![1, 64]⟩ .f32) (Wb : FVec Ideal ⟨2, ![64, 64]⟩ .f32) (bb : FVec Ideal ⟨2, ![1, 64]⟩ .f32) :
    FVec Ideal ⟨2, ![N, 64]⟩ .f32 :=
  fun i => row (fun j => h (ix2 (i 0) j) + agg (ix2 (i 0) j)) (fun j k => Wa (ix2 j k)) (fun k => ba (ix2 0 k))
    (fun k c => Wb (ix2 k c)) (fun c => bb (ix2 0 c)) (i 1)

/-- With each bias row the reshape of a bias vector, that is the specification's layer. -/
theorem layerRows_shapeCast {N D : Nat} (h agg : FVec Ideal ⟨2, ![N, D]⟩ .f32) (Wa : FVec Ideal ⟨2, ![D, 64]⟩ .f32)
    (ba : FVec Ideal ⟨1, ![64]⟩ .f32) (Wb : FVec Ideal ⟨2, ![64, 64]⟩ .f32) (bb : FVec Ideal ⟨1, ![64]⟩ .f32)
    (hsc : (⟨1, ![64]⟩ : Shape).ShapeCasts ⟨2, ![1, 64]⟩) :
    layerRows h agg Wa (shapeCast ⟨2, ![1, 64]⟩ ba hsc) Wb (shapeCast ⟨2, ![1, 64]⟩ bb hsc) = layer h agg Wa ba Wb bb := by
  funext i
  unfold layerRows layer
  simp only [Cert.Lib.Rows.shapeCast_vec_row_apply]

/-- The all-zero offsets of a whole-buffer access, however spelt. -/
theorem zero_off : (![0, 0] : Fin 2 → Nat) = fun _ => 0 := funext fun a => by fin_cases a <;> rfl

/-- Two applications of the row function agree when their arguments agree entrywise. -/
theorem row_congr {D : Nat} {z z' : Fin D → EReal} {Wa Wa' : Fin D → Fin 64 → EReal} {ba ba' : Fin 64 → EReal}
    {Wb Wb' : Fin 64 → Fin 64 → EReal} {bb bb' : Fin 64 → EReal} {q q' : Fin 64}
    (hz : ∀ j, z j = z' j) (hWa : ∀ j k, Wa j k = Wa' j k) (hba : ∀ k, ba k = ba' k) (hWb : ∀ k c, Wb k c = Wb' k c)
    (hbb : ∀ c, bb c = bb' c) (hq : q = q') :
    row z Wa ba Wb bb q = row z' Wa' ba' Wb' bb' q' := by
  obtain rfl : z = z' := funext hz
  obtain rfl : Wa = Wa' := funext fun j => funext (hWa j)
  obtain rfl : ba = ba' := funext hba
  obtain rfl : Wb = Wb' := funext fun k => funext (hWb k)
  obtain rfl : bb = bb' := funext hbb
  rw [hq]

end Cert.Gin

end
-- ==== Proof.KernelLayer.lean ====
/-
  The two kernel bodies' stored values, read at an entry.

  Each launch of the kernel loads a block of 5000 rows of h and of agg, the two weight matrices whole and
  the two biases as rows [1, 64], and stores one value: the layer's arithmetic of those loads (the sum
  h + agg rounded to half precision, which is no change at the ideal values, and the shape casts of a
  vector to its own shape, which are the identity).  At entry (p, q) of the block that value is the
  specification's row function of row p of the loaded h + agg.  The first launch has 128 input features,
  the second 64.
-/
import proofs.«179363_j20005957664840_1_alg».proof.Proof.MlpBlock
import proofs.«179363_j20005957664840_1_alg».proof.Proof.Gen.KernelIdeal.Skeleton
import Idealize.ShloMosaic.Lib.Pipeline.Value

noncomputable section

namespace Cert.KernelIdeal.KLayer

open Idealize.ShloMosaic Idealize.ShloMosaic.ValueIdx Cert.KernelIdeal Cert.KernelIdeal.Gen

/-- The first launch's stored value is the layer's arithmetic of its loads. -/
theorem pay0_eq_block (v0 v1 : Vec Ideal S5000x128 .f32) (v5 : Vec Ideal S128x64 .f32) (v8 : Vec Ideal S1x64 .f32)
    (v15 : Vec Ideal S64x64 .f32) (v18 : Vec Ideal S1x64 .f32) :
    k0_pay1 (F := Ideal) v0 v1 v5 v8 v15 v18
      = Cert.Gin.block (R := 5000) (D := 128) (truncf .bf16 (addf v0 v1) bitsLt_bf16_f32) (truncf .bf16 v5 bitsLt_bf16_f32) v8
          (truncf .bf16 v15 bitsLt_bf16_f32) v18 broadcasts_S1x64_S5000x64 bitsLt_bf16_f32 := by
  unfold k0_pay1 Cert.Gin.block
  rw [shapeCast_self, shapeCast_self, shapeCast_self]
  rfl

/-- The first launch's stored value at (p, q). -/
theorem pay0_apply (v0 v1 : Vec Ideal S5000x128 .f32) (v5 : Vec Ideal S128x64 .f32) (v8 : Vec Ideal S1x64 .f32)
    (v15 : Vec Ideal S64x64 .f32) (v18 : Vec Ideal S1x64 .f32) (y : S5000x64.Idx) :
    k0_pay1 (F := Ideal) v0 v1 v5 v8 v15 v18 y
      = Cert.Gin.row (fun j : Fin 128 => v0 (ix2 (y 0) j) + v1 (ix2 (y 0) j)) (fun j k => v5 (ix2 j k)) (fun k => v8 (ix2 0 k))
          (fun k c => v15 (ix2 k c)) (fun c => v18 (ix2 0 c)) (y 1) := by
  obtain ⟨p, q, rfl⟩ : ∃ (p : Fin 5000) (q : Fin 64), y = ix2 p q := ⟨y 0, y 1, eq_ix2 y⟩
  rw [pay0_eq_block, Cert.Gin.block_apply]
  rfl

/-- The second launch's stored value is the layer's arithmetic of its loads. -/
theorem pay1_eq_block (v0 v2 : Vec Ideal S5000x64 .f32) (v6 : Vec Ideal S64x64 .f32) (v9 : Vec Ideal S1x64 .f32)
    (v16 : Vec Ideal S64x64 .f32) (v19 : Vec Ideal S1x64 .f32) :
    k1_pay1 (F := Ideal) v0 v2 v6 v9 v16 v19
      = Cert.Gin.block (R := 5000) (D := 64) (truncf .bf16 (addf v0 v2) bitsLt_bf16_f32) (truncf .bf16 v6 bitsLt_bf16_f32) v9
          (truncf .bf16 v16 bitsLt_bf16_f32) v19 broadcasts_S1x64_S5000x64 bitsLt_bf16_f32 := by
  unfold k1_pay1 Cert.Gin.block
  rw [shapeCast_self, shapeCast_self, shapeCast_self, shapeCast_self]
  rfl

/-- The second launch's stored value at (p, q). -/
theorem pay1_apply (v0 v2 : Vec Ideal S5000x64 .f32) (v6 : Vec Ideal S64x64 .f32) (v9 : Vec Ideal S1x64 .f32)
    (v16 : Vec Ideal S64x64 .f32) (v19 : Vec Ideal S1x64 .f32) (y : S5000x64.Idx) :
    k1_pay1 (F := Ideal) v0 v2 v6 v9 v16 v19 y
      = Cert.Gin.row (fun j : Fin 64 => v0 (ix2 (y 0) j) + v2 (ix2 (y 0) j)) (fun j k => v6 (ix2 j k)) (fun k => v9 (ix2 0 k))
          (fun k c => v16 (ix2 k c)) (fun c => v19 (ix2 0 c)) (y 1) := by
  obtain ⟨p, q, rfl⟩ : ∃ (p : Fin 5000) (q : Fin 64), y = ix2 p q := ⟨y 0, y 1, eq_ix2 y⟩
  rw [pay1_eq_block, Cert.Gin.block_apply]
  rfl

end Cert.KernelIdeal.KLayer

end
-- ==== Proof.KernelBlocks0.lean ====
/-
  The first launch's output array as one function of the arrays it is entered with.

  The launch runs over 20 grid points; point t reads rows 5000 t .. 5000 t + 4999 of h and of agg (128 features),
  the weights and the bias rows whole, and writes back rows 5000 t .. 5000 t + 4999 of the output.  The 20
  written blocks tile the 100000 rows, and block t of the output depends on block t of the inputs only, row
  by row: so the output array ends as the layer, biases as rows, of the arrays as the launch found them.
  This is stated for ANY contents `V` the launch is entered with.
-/
import proofs.«179363_j20005957664840_1_alg».proof.Proof.KernelLayer
import proofs.«179363_j20005957664840_1_alg».proof.Proof.Gen.KernelIdeal.Frame
import Idealize.ShloMosaic.Lib.Pipeline.Value

noncomputable section

namespace Cert.KernelIdeal.KValue

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- What the first launch's output array ends holding, from the contents `V` it is entered with: the layer of
    h (argument 0) and agg (the host's value 13), the weights (arguments 2 and 4) and the bias rows (the host's values 14 and 15). -/
def whole0 (c : Dev nD) : FVec Ideal S100000x64 .f32 :=
  Cert.Gin.layerRows (N := 100000) (D := 128) (V c main_arg0) (V c main_v13) (V c main_arg2) (V c main_v14) (V c main_arg4) (V c main_v15)

/-- The printed index maps, decided over the 20 grid points: the row-blocked windows (h, agg, the output) sit
    at block t of the rows and block 0 of the columns; the weights and biases at block 0 of both. -/
theorem idx_facts0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT t WRITES BACK is block t of `whole0`: the stored value at an entry is the row function of the
    loaded blocks' row, and each loaded block's entry is the array's entry at the block's offset. -/
theorem flushed_eq0 (c : Dev nD) (t : Fin cfg0.N) :
    (dat0 V c).flushed 6 t = ((cfg0.win 6).blk t).view.read (Elt Ideal) (whole0 V c) := by
  show (cfg0.win 6).cut (grid0.coords t) ((dat0 V c).after 6 t) = _
  rw [after0_6]
  unfold out0_6
  rw [View.canon_unit_zero Cert.Gin.zero_off]
  simp only [View.ld_unit_zero (S := S5000x128) Cert.Gin.zero_off, View.ld_unit_zero (S := S128x64) Cert.Gin.zero_off, View.ld_unit_zero (S := S1x64) Cert.Gin.zero_off, View.ld_unit_zero (S := S64x64) Cert.Gin.zero_off]
  obtain ⟨e00, e01, e10, e11, e20, e21, e30, e31, e40, e41, e50, e51, e60, e61⟩ := idx_facts0 t
  funext y
  show k0_pay1 (iblk0 V c 0 t) (iblk0 V c 1 t) (iblk0 V c 2 t) (iblk0 V c 3 t) (iblk0 V c 4 t) (iblk0 V c 5 t) y
      = whole0 V c (((cfg0.win 6).blk t).view.emb y)
  refine (KLayer.pay0_apply (iblk0 V c 0 t) (iblk0 V c 1 t) (iblk0 V c 2 t) (iblk0 V c 3 t) (iblk0 V c 4 t) (iblk0 V c 5 t) y).trans ?_
  unfold whole0 Cert.Gin.layerRows
  refine Cert.Gin.row_congr (fun j => ?_) (fun j k => ?_) (fun k => ?_) (fun k c' => ?_) (fun c' => ?_) ?_
  · have h0 : iblk0 V c 0 t (ix2 (y 0) j) = V c main_arg0 (ix2 (((cfg0.win 6).blk t).view.emb y 0) j) := (by
      show V c main_arg0 (((cfg0.win 0).blk t).view.emb (ix2 (y 0) j)) = _
      refine congrArg (V c main_arg0) (funext fun a => Fin.ext ?_)
      match a with
      | ⟨0, _⟩ => show win0_0.index t (0 : Fin 2) * 5000 + 1 * (y 0).val = win0_6.index t (0 : Fin 2) * 5000 + 1 * (y 0).val; omega
      | ⟨1, _⟩ => show win0_0.index t (1 : Fin 2) * 128 + 1 * j.val = j.val; omega)
    have h1 : iblk0 V c 1 t (ix2 (y 0) j) = V c main_v13 (ix2 (((cfg0.win 6).blk t).view.emb y 0) j) := (by
      show V c main_v13 (((cfg0.win 1).blk t).view.emb (ix2 (y 0) j)) = _
      refine congrArg (V c main_v13) (funext fun a => Fin.ext ?_)
      match a with
      | ⟨0, _⟩ => show win0_1.index t (0 : Fin 2) * 5000 + 1 * (y 0).val = win0_6.index t (0 : Fin 2) * 5000 + 1 * (y 0).val; omega
      | ⟨1, _⟩ => show win0_1.index t (1 : Fin 2) * 128 + 1 * j.val = j.val; omega)
    rw [h0, h1]
  · exact (by
      show V c main_arg2 (((cfg0.win 2).blk t).view.emb (ix2 j k)) = _
      refine congrArg (V c main_arg2) (funext fun a => Fin.ext ?_)
      match a with
      | ⟨0, _⟩ => show win0_2.index t (0 : Fin 2) * 128 + 1 * j.val = j.val; omega
      | ⟨1, _⟩ => show win0_2.index t (1 : Fin 2) * 64 + 1 * k.val = k.val; omega)
  · exact (by
      show V c main_v14 (((cfg0.win 3).blk t).view.emb (ix2 0 k)) = _
      refine congrArg (V c main_v14) (funext fun a => Fin.ext ?_)
      match a with
      | ⟨0, _⟩ => show win0_3.index t (0 : Fin 2) * 1 + 1 * 0 = 0; omega
      | ⟨1, _⟩ => show win0_3.index t (1 : Fin 2) * 64 + 1 * k.val = k.val; omega)
  · exact (by
      show V c main_arg4 (((cfg0.win 4).blk t).view.emb (ix2 k c')) = _
      refine congrArg (V c main_arg4) (funext fun a => Fin.ext ?_)
      match a with
      | ⟨0, _⟩ => show win0_4.index t (0 : Fin 2) * 64 + 1 * k.val = k.val; omega
      | ⟨1, _⟩ => show win0_4.index t (1 : Fin 2) * 64 + 1 * c'.val = c'.val; omega)
  · exact (by
      show V c main_v15 (((cfg0.win 5).blk t).view.emb (ix2 0 c')) = _
      refine congrArg (V c main_v15) (funext fun a => Fin.ext ?_)
      match a with
      | ⟨0, _⟩ => show win0_5.index t (0 : Fin 2) * 1 + 1 * 0 = 0; omega
      | ⟨1, _⟩ => show win0_5.index t (1 : Fin 2) * 64 + 1 * c'.val = c'.val; omega)
  · exact Fin.ext (show (y 1).val = win0_6.index t (1 : Fin 2) * 64 + 1 * (y 1).val by omega)

/-- An index of the output array is in point t's block iff each coordinate is in the block's range on its axis. -/
theorem mem_blk0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v16).slice (win0_6.rect t)).set ↔ _
  rw [View.set_slice_whole, Rect.mem_set_unit]
  exact Iff.rfl

/-- Every block of 5000 rows is some point's. -/
theorem idx_onto0 : ∀ q : Fin 20, ∃ t : Fin cfg0.N, win0_6.index t = ![q.val, 0] :=
  (by decide +kernel : ∀ q : Fin 20, ∃ t : Fin grid0.N, win0_6.index t = ![q.val, 0])

/-- The written blocks cover the output array: row r is in the block of point r / 5000. -/
theorem cover0 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := idx_onto0 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- THE OUTPUT ARRAY after the launch is `whole0` of the contents the launch was entered with. -/
theorem final0 (c : Dev nD) : (dat0 V c).arrAt 6 cfg0.N = whole0 V c :=
  (dat0 V c).arrAt_eq_of_cover 6 (whole0 V c) (fun t _ => flushed_eq0 V c t) cover0

end Cert.KernelIdeal.KValue

end
-- ==== Proof.KernelBlocks1.lean ====
/-
  The second launch's output array as one function of the arrays it is entered with.

  The launch runs over 20 grid points; point t reads rows 5000 t .. 5000 t + 4999 of h and of agg (64 features),
  the weights and the bias rows whole, and writes back rows 5000 t .. 5000 t + 4999 of the output.  The 20
  written blocks tile the 100000 rows, and block t of the output depends on block t of the inputs only, row
  by row: so the output array ends as the layer, biases as rows, of the arrays as the launch found them.
  This is stated for ANY contents `V` the launch is entered with.
-/
import proofs.«179363_j20005957664840_1_alg».proof.Proof.KernelLayer
import proofs.«179363_j20005957664840_1_alg».proof.Proof.Gen.KernelIdeal.Frame
import Idealize.ShloMosaic.Lib.Pipeline.Value

noncomputable section

namespace Cert.KernelIdeal.KValue

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- What the second launch's output array ends holding, from the contents `V` it is entered with: the layer of
    h (the first launch's output, value 16) and agg (the host's value 26), the weights (arguments 6 and 8) and the bias rows (the host's values 27 and 28). -/
def whole1 (c : Dev nD) : FVec Ideal S100000x64 .f32 :=
  Cert.Gin.layerRows (N := 100000) (D := 64) (V c main_v16) (V c main_v26) (V c main_arg6) (V c main_v27) (V c main_arg8) (V c main_v28)

/-- The printed index maps, decided over the 20 grid points: the row-blocked windows (h, agg, the output) sit
    at block t of the rows and block 0 of the columns; the weights and biases at block 0 of both. -/
theorem idx_facts1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT t WRITES BACK is block t of `whole1`: the stored value at an entry is the row function of the
    loaded blocks' row, and each loaded block's entry is the array's entry at the block's offset. -/
theorem flushed_eq1 (c : Dev nD) (t : Fin cfg1.N) :
    (dat1 V c).flushed 6 t = ((cfg1.win 6).blk t).view.read (Elt Ideal) (whole1 V c) := by
  show (cfg1.win 6).cut (grid1.coords t) ((dat1 V c).after 6 t) = _
  rw [after1_6]
  unfold out1_6
  rw [View.canon_unit_zero Cert.Gin.zero_off]
  simp only [View.ld_unit_zero (S := S5000x64) Cert.Gin.zero_off, View.ld_unit_zero (S := S64x64) Cert.Gin.zero_off, View.ld_unit_zero (S := S1x64) Cert.Gin.zero_off]
  obtain ⟨e00, e01, e10, e11, e20, e21, e30, e31, e40, e41, e50, e51, e60, e61⟩ := idx_facts1 t
  funext y
  show k1_pay1 (iblk1 V c 0 t) (iblk1 V c 1 t) (iblk1 V c 2 t) (iblk1 V c 3 t) (iblk1 V c 4 t) (iblk1 V c 5 t) y
      = whole1 V c (((cfg1.win 6).blk t).view.emb y)
  refine (KLayer.pay1_apply (iblk1 V c 0 t) (iblk1 V c 1 t) (iblk1 V c 2 t) (iblk1 V c 3 t) (iblk1 V c 4 t) (iblk1 V c 5 t) y).trans ?_
  unfold whole1 Cert.Gin.layerRows
  refine Cert.Gin.row_congr (fun j => ?_) (fun j k => ?_) (fun k => ?_) (fun k c' => ?_) (fun c' => ?_) ?_
  · have h0 : iblk1 V c 0 t (ix2 (y 0) j) = V c main_v16 (ix2 (((cfg1.win 6).blk t).view.emb y 0) j) := (by
      show V c main_v16 (((cfg1.win 0).blk t).view.emb (ix2 (y 0) j)) = _
      refine congrArg (V c main_v16) (funext fun a => Fin.ext ?_)
      match a with
      | ⟨0, _⟩ => show win1_0.index t (0 : Fin 2) * 5000 + 1 * (y 0).val = win1_6.index t (0 : Fin 2) * 5000 + 1 * (y 0).val; omega
      | ⟨1, _⟩ => show win1_0.index t (1 : Fin 2) * 64 + 1 * j.val = j.val; omega)
    have h1 : iblk1 V c 1 t (ix2 (y 0) j) = V c main_v26 (ix2 (((cfg1.win 6).blk t).view.emb y 0) j) := (by
      show V c main_v26 (((cfg1.win 1).blk t).view.emb (ix2 (y 0) j)) = _
      refine congrArg (V c main_v26) (funext fun a => Fin.ext ?_)
      match a with
      | ⟨0, _⟩ => show win1_1.index t (0 : Fin 2) * 5000 + 1 * (y 0).val = win1_6.index t (0 : Fin 2) * 5000 + 1 * (y 0).val; omega
      | ⟨1, _⟩ => show win1_1.index t (1 : Fin 2) * 64 + 1 * j.val = j.val; omega)
    rw [h0, h1]
  · exact (by
      show V c main_arg6 (((cfg1.win 2).blk t).view.emb (ix2 j k)) = _
      refine congrArg (V c main_arg6) (funext fun a => Fin.ext ?_)
      match a with
      | ⟨0, _⟩ => show win1_2.index t (0 : Fin 2) * 64 + 1 * j.val = j.val; omega
      | ⟨1, _⟩ => show win1_2.index t (1 : Fin 2) * 64 + 1 * k.val = k.val; omega)
  · exact (by
      show V c main_v27 (((cfg1.win 3).blk t).view.emb (ix2 0 k)) = _
      refine congrArg (V c main_v27) (funext fun a => Fin.ext ?_)
      match a with
      | ⟨0, _⟩ => show win1_3.index t (0 : Fin 2) * 1 + 1 * 0 = 0; omega
      | ⟨1, _⟩ => show win1_3.index t (1 : Fin 2) * 64 + 1 * k.val = k.val; omega)
  · exact (by
      show V c main_arg8 (((cfg1.win 4).blk t).view.emb (ix2 k c')) = _
      refine congrArg (V c main_arg8) (funext fun a => Fin.ext ?_)
      match a with
      | ⟨0, _⟩ => show win1_4.index t (0 : Fin 2) * 64 + 1 * k.val = k.val; omega
      | ⟨1, _⟩ => show win1_4.index t (1 : Fin 2) * 64 + 1 * c'.val = c'.val; omega)
  · exact (by
      show V c main_v28 (((cfg1.win 5).blk t).view.emb (ix2 0 c')) = _
      refine congrArg (V c main_v28) (funext fun a => Fin.ext ?_)
      match a with
      | ⟨0, _⟩ => show win1_5.index t (0 : Fin 2) * 1 + 1 * 0 = 0; omega
      | ⟨1, _⟩ => show win1_5.index t (1 : Fin 2) * 64 + 1 * c'.val = c'.val; omega)
  · exact Fin.ext (show (y 1).val = win1_6.index t (1 : Fin 2) * 64 + 1 * (y 1).val by omega)

/-- An index of the output array is in point t's block iff each coordinate is in the block's range on its axis. -/
theorem mem_blk1 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v29).slice (win1_6.rect t)).set ↔ _
  rw [View.set_slice_whole, Rect.mem_set_unit]
  exact Iff.rfl

/-- Every block of 5000 rows is some point's. -/
theorem idx_onto1 : ∀ q : Fin 20, ∃ t : Fin cfg1.N, win1_6.index t = ![q.val, 0] :=
  (by decide +kernel : ∀ q : Fin 20, ∃ t : Fin grid1.N, win1_6.index t = ![q.val, 0])

/-- The written blocks cover the output array: row r is in the block of point r / 5000. -/
theorem cover1 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ := idx_onto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- THE OUTPUT ARRAY after the launch is `whole1` of the contents the launch was entered with. -/
theorem final1 (c : Dev nD) : (dat1 V c).arrAt 6 cfg1.N = whole1 V c :=
  (dat1 V c).arrAt_eq_of_cover 6 (whole1 V c) (fun t _ => flushed_eq1 V c t) cover1

end Cert.KernelIdeal.KValue

end
-- ==== Proof.AggK.lean ====
/-
  Neighbour aggregation: what both programs compute on the host before each layer.

  The edge table e [2, 1600000] holds, per edge, a source node (row 0) and a destination node (row 1).
  The aggregate of node features h [100000, D] is, at node v, the sum over the edges that end in v of the
  source's row of h: the sources' rows are gathered per edge, and the gathered rows are added into a zero
  array at the destinations' rows.  A negative source index counts from the end (100000 is added to it).

  The chain is carried as ONE function of (h, e) and never opened: the two programs apply the same
  operations to the same arguments, so whatever the gather and the scattered sum do with an index out of
  range, or with a sum in any order, they do it alike on both sides.  This module spells the chain with the
  kernel program's own dimension records.
-/
import proofs.«179363_j20005957664840_1_alg».proof.Proof.Gen.KernelIdeal

noncomputable section

namespace Cert.KernelIdeal.Agg

open Idealize.ShloMosaic Cert.KernelIdeal Cert.KernelIdeal.Gen

variable {F : FTy → Type} [FloatOps F]

/-- Row 0 of the edge table: the edges' source nodes. -/
def src (e : IVec S2x1600000 32) : IVec S1600000 32 :=
  shapeCast S1600000 (extractStridedSlice S1x1600000 ![0, 0] e slices_S2x1600000_S1x1600000_0_0) shapeCasts_S1x1600000_S1600000

/-- Row 1 of the edge table: the edges' destination nodes. -/
def dst (e : IVec S2x1600000 32) : IVec S1600000 32 :=
  shapeCast S1600000 (extractStridedSlice S1x1600000 ![1, 0] e slices_S2x1600000_S1x1600000_1_0) shapeCasts_S1x1600000_S1600000

/-- The source indices as the gather takes them: a negative index counted from the end (+ 100000), as a column. -/
def srcCol (e : IVec S2x1600000 32) : IVec S1600000x1 32 :=
  broadcastInDim S1600000x1 ![0] bcast_S1600000_S1600000x1_0
    (select (cmpi .slt (src e) (broadcastInDim S1600000 ![] bcast_S_S1600000 (constantI S_ 32 0#32)))
      (addi (src e) (broadcastInDim S1600000 ![] bcast_S_S1600000 (constantI S_ 32 100000#32))) (src e))

/-- The destination indices as a column. -/
def dstCol (e : IVec S2x1600000 32) : IVec S1600000x1 32 :=
  broadcastInDim S1600000x1 ![0] bcast_S1600000_S1600000x1_0 (dst e)

/-- Neighbour aggregation of 128 features: the sources' rows gathered per edge and summed into the destinations' rows. -/
def agg128 (h : FVec F S100000x128 .f32) (e : IVec S2x1600000 32) : FVec F S100000x128 .f32 :=
  Host.scatterAdd scatter_S100000x128_S1600000x1_S1600000x128_1_0_0_1
    (broadcastInDim S100000x128 ![] bcast_S_S100000x128 (constant S_ .f32 0x00000000#32)) (dstCol e)
    (Host.gather gather_S100000x128_S1600000x1_S1600000x128_1_0_n_n_0_1_1128 h (srcCol e))

/-- The same of 64 features. -/
def agg64 (h : FVec F S100000x64 .f32) (e : IVec S2x1600000 32) : FVec F S100000x64 .f32 :=
  Host.scatterAdd scatter_S100000x64_S1600000x1_S1600000x64_1_0_0_1
    (broadcastInDim S100000x64 ![] bcast_S_S100000x64 (constant S_ .f32 0x00000000#32)) (dstCol e)
    (Host.gather gather_S100000x64_S1600000x1_S1600000x64_1_0_n_n_0_1_164 h (srcCol e))

end Cert.KernelIdeal.Agg

end
-- ==== Proof.KernelChain.lean ====
/-
  The kernel program's result as the two layers of its arguments.

  The contents of the buffers at the four boundaries of @main are read here, one buffer at a time:
  * entering the first launch, the arguments are as launched, the host's value 13 is the neighbour
    aggregate of h (argument 0) over the edge table (argument 1), and the host's values 14 and 15 are the
    first layer's two bias vectors reshaped to rows;
  * the first launch leaves its output (value 16) at the layer of those, every other buffer as it was;
  * entering the second launch, value 26 is the aggregate of value 16 over the same edge table (the edges'
    source and destination vectors, values 1 and 3, were computed before the first launch and nothing has
    written them since), and values 27 and 28 are the second layer's bias vectors reshaped to rows;
  * the second launch leaves its output (value 29, the program's result) at the layer of those.
  A bias vector reshaped to a row and read at (0, c) is the vector at c, so the result is the
  specification's layer of the specification's layer of the arguments.
-/
import proofs.«179363_j20005957664840_1_alg».proof.Proof.KernelBlocks0
import proofs.«179363_j20005957664840_1_alg».proof.Proof.KernelBlocks1
import proofs.«179363_j20005957664840_1_alg».proof.Proof.AggK
import Idealize.ShloMosaic.Lib.StableHlo.Run

noncomputable section

namespace Cert.KernelIdeal.KValue

open Idealize.ShloMosaic Idealize.ShloMosaic.TcCoe Idealize.ShloMosaic.ValueIdx Idealize.SL.Sem
open Idealize.ShloMosaic.StableHlo
open Cert.KernelIdeal Cert.KernelIdeal.Gen
open Idealize.ShloMosaic.Pipeline (Dat)

variable (m : (ℓ : Loc nD τ sig) → Buf (Elt Ideal) ℓ) (ρ : Dev nD → PrngReg)

/-! ## Entering the first launch: the launch memory after the first stretch of host operations -/

theorem entry0_arg0 (c : Dev nD) : V1 m ρ c main_arg0 = m ((c : Thread nD τ).loc main_arg0) := by
  show StableHlo.after hostOps0 (W0 m ρ c) (Proc.devRef .tc main_arg0) = _
  after_results <;> rfl
theorem entry0_arg2 (c : Dev nD) : V1 m ρ c main_arg2 = m ((c : Thread nD τ).loc main_arg2) := by
  show StableHlo.after hostOps0 (W0 m ρ c) (Proc.devRef .tc main_arg2) = _
  after_results <;> rfl
theorem entry0_arg4 (c : Dev nD) : V1 m ρ c main_arg4 = m ((c : Thread nD τ).loc main_arg4) := by
  show StableHlo.after hostOps0 (W0 m ρ c) (Proc.devRef .tc main_arg4) = _
  after_results <;> rfl
/-- Value 13 is the aggregate of h over the edge table. -/
theorem entry0_agg (c : Dev nD) : V1 m ρ c main_v13 = Agg.agg128 (F := Ideal) (m ((c : Thread nD τ).loc main_arg0)) (m ((c : Thread nD τ).loc main_arg1)) := by
  show StableHlo.after hostOps0 (W0 m ρ c) (Proc.devRef .tc main_v13) = _
  after_results <;> rfl
/-- Values 14 and 15 are the first layer's bias vectors as rows. -/
theorem entry0_ba (c : Dev nD) : V1 m ρ c main_v14 = shapeCast S1x64 (m ((c : Thread nD τ).loc main_arg3)) shapeCasts_S64_S1x64 := by
  show StableHlo.after hostOps0 (W0 m ρ c) (Proc.devRef .tc main_v14) = _
  after_results <;> rfl
theorem entry0_bb (c : Dev nD) : V1 m ρ c main_v15 = shapeCast S1x64 (m ((c : Thread nD τ).loc main_arg5)) shapeCasts_S64_S1x64 := by
  show StableHlo.after hostOps0 (W0 m ρ c) (Proc.devRef .tc main_v15) = _
  after_results <;> rfl

/-- The edges' source vector (value 1) and destination vector (value 3), and the second layer's arguments,
    after the first stretch. -/
theorem first_src (c : Dev nD) : W1 m ρ c (Proc.devRef .tc main_v1) = Agg.src (m ((c : Thread nD τ).loc main_arg1)) := by
  show StableHlo.after hostOps0 (W0 m ρ c) (Proc.devRef .tc main_v1) = _
  after_results <;> rfl
theorem first_dst (c : Dev nD) : W1 m ρ c (Proc.devRef .tc main_v3) = Agg.dst (m ((c : Thread nD τ).loc main_arg1)) := by
  show StableHlo.after hostOps0 (W0 m ρ c) (Proc.devRef .tc main_v3) = _
  after_results <;> rfl
theorem first_arg6 (c : Dev nD) : W1 m ρ c (Proc.devRef .tc main_arg6) = m ((c : Thread nD τ).loc main_arg6) := by
  show StableHlo.after hostOps0 (W0 m ρ c) (Proc.devRef .tc main_arg6) = _
  after_results <;> rfl
theorem first_arg7 (c : Dev nD) : W1 m ρ c (Proc.devRef .tc main_arg7) = m ((c : Thread nD τ).loc main_arg7) := by
  show StableHlo.after hostOps0 (W0 m ρ c) (Proc.devRef .tc main_arg7) = _
  after_results <;> rfl
theorem first_arg8 (c : Dev nD) : W1 m ρ c (Proc.devRef .tc main_arg8) = m ((c : Thread nD τ).loc main_arg8) := by
  show StableHlo.after hostOps0 (W0 m ρ c) (Proc.devRef .tc main_arg8) = _
  after_results <;> rfl
theorem first_arg9 (c : Dev nD) : W1 m ρ c (Proc.devRef .tc main_arg9) = m ((c : Thread nD τ).loc main_arg9) := by
  show StableHlo.after hostOps0 (W0 m ρ c) (Proc.devRef .tc main_arg9) = _
  after_results <;> rfl

/-! ## Leaving the first launch: its output at the layer, every other buffer as it was -/

/-- The first launch's output array, value 16: the first layer of the arguments. -/
theorem mid_h (c : Dev nD) :
    W2 m ρ c (Proc.devRef .tc main_v16)
      = Cert.Gin.layer (N := 100000) (D := 128) (m ((c : Thread nD τ).loc main_arg0)) (Agg.agg128 (F := Ideal) (m ((c : Thread nD τ).loc main_arg0)) (m ((c : Thread nD τ).loc main_arg1)))
          (m ((c : Thread nD τ).loc main_arg2)) (m ((c : Thread nD τ).loc main_arg3)) (m ((c : Thread nD τ).loc main_arg4)) (m ((c : Thread nD τ).loc main_arg5)) := by
  refine (W2_arr m ρ c 6).trans ?_
  rw [final0]
  unfold whole0
  rw [entry0_arg0, entry0_agg, entry0_arg2, entry0_ba, entry0_arg4, entry0_bb]
  exact Cert.Gin.layerRows_shapeCast _ _ _ _ _ _ _
theorem mid_src (c : Dev nD) : W2 m ρ c (Proc.devRef .tc main_v1) = Agg.src (m ((c : Thread nD τ).loc main_arg1)) :=
  (W2_of_ne m ρ c main_v1 (by decide)).trans (first_src m ρ c)
theorem mid_dst (c : Dev nD) : W2 m ρ c (Proc.devRef .tc main_v3) = Agg.dst (m ((c : Thread nD τ).loc main_arg1)) :=
  (W2_of_ne m ρ c main_v3 (by decide)).trans (first_dst m ρ c)
theorem mid_arg6 (c : Dev nD) : W2 m ρ c (Proc.devRef .tc main_arg6) = m ((c : Thread nD τ).loc main_arg6) :=
  (W2_of_ne m ρ c main_arg6 (by decide)).trans (first_arg6 m ρ c)
theorem mid_arg7 (c : Dev nD) : W2 m ρ c (Proc.devRef .tc main_arg7) = m ((c : Thread nD τ).loc main_arg7) :=
  (W2_of_ne m ρ c main_arg7 (by decide)).trans (first_arg7 m ρ c)
theorem mid_arg8 (c : Dev nD) : W2 m ρ c (Proc.devRef .tc main_arg8) = m ((c : Thread nD τ).loc main_arg8) :=
  (W2_of_ne m ρ c main_arg8 (by decide)).trans (first_arg8 m ρ c)
theorem mid_arg9 (c : Dev nD) : W2 m ρ c (Proc.devRef .tc main_arg9) = m ((c : Thread nD τ).loc main_arg9) :=
  (W2_of_ne m ρ c main_arg9 (by decide)).trans (first_arg9 m ρ c)

/-! ## Entering the second launch: the second stretch of host operations -/

theorem entry1_h (c : Dev nD) : V3 m ρ c main_v16 = W2 m ρ c (Proc.devRef .tc main_v16) := by
  show StableHlo.after hostOps1 (W2 m ρ c) (Proc.devRef .tc main_v16) = _
  after_results <;> rfl
/-- Value 26 is the aggregate of the first launch's output over the same edge table. -/
theorem entry1_agg (c : Dev nD) : V3 m ρ c main_v26 = Agg.agg64 (F := Ideal) (W2 m ρ c (Proc.devRef .tc main_v16)) (m ((c : Thread nD τ).loc main_arg1)) := by
  show StableHlo.after hostOps1 (W2 m ρ c) (Proc.devRef .tc main_v26) = _
  after_results
  rw [mid_src, mid_dst]
  rfl
theorem entry1_Wa (c : Dev nD) : V3 m ρ c main_arg6 = m ((c : Thread nD τ).loc main_arg6) := by
  show StableHlo.after hostOps1 (W2 m ρ c) (Proc.devRef .tc main_arg6) = _
  after_results
  exact mid_arg6 m ρ c
theorem entry1_Wb (c : Dev nD) : V3 m ρ c main_arg8 = m ((c : Thread nD τ).loc main_arg8) := by
  show StableHlo.after hostOps1 (W2 m ρ c) (Proc.devRef .tc main_arg8) = _
  after_results
  exact mid_arg8 m ρ c
theorem entry1_ba (c : Dev nD) : V3 m ρ c main_v27 = shapeCast S1x64 (m ((c : Thread nD τ).loc main_arg7)) shapeCasts_S64_S1x64 := by
  show StableHlo.after hostOps1 (W2 m ρ c) (Proc.devRef .tc main_v27) = _
  after_results
  rw [mid_arg7]
  rfl
theorem entry1_bb (c : Dev nD) : V3 m ρ c main_v28 = shapeCast S1x64 (m ((c : Thread nD τ).loc main_arg9)) shapeCasts_S64_S1x64 := by
  show StableHlo.after hostOps1 (W2 m ρ c) (Proc.devRef .tc main_v28) = _
  after_results
  rw [mid_arg9]
  rfl

/-! ## The result -/

/-- The two layers of the arguments: what the program's result buffer ends holding. -/
def out (h : FVec Ideal S100000x128 .f32) (e : IVec S2x1600000 32) (W1a : FVec Ideal S128x64 .f32) (b1a : FVec Ideal S64 .f32)
    (W1b : FVec Ideal S64x64 .f32) (b1b : FVec Ideal S64 .f32) (W2a : FVec Ideal S64x64 .f32) (b2a : FVec Ideal S64 .f32)
    (W2b : FVec Ideal S64x64 .f32) (b2b : FVec Ideal S64 .f32) : FVec Ideal S100000x64 .f32 :=
  Cert.Gin.layer (N := 100000) (D := 64) (Cert.Gin.layer (N := 100000) (D := 128) h (Agg.agg128 (F := Ideal) h e) W1a b1a W1b b1b)
    (Agg.agg64 (F := Ideal) (Cert.Gin.layer (N := 100000) (D := 128) h (Agg.agg128 (F := Ideal) h e) W1a b1a W1b b1b) e) W2a b2a W2b b2b

/-- The last boundary's contents at the result buffer are the two layers of the launch arguments. -/
theorem result_eq (c : Dev nD) :
    W4 m ρ c (Proc.devRef .tc main_v29)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) := by
  refine (W4_arr m ρ c 6).trans ?_
  rw [final1]
  unfold whole1
  rw [entry1_h, entry1_agg, entry1_Wa, entry1_ba, entry1_Wb, entry1_bb, mid_h]
  exact Cert.Gin.layerRows_shapeCast _ _ _ _ _ _ _

end Cert.KernelIdeal.KValue

end
-- ==== Proof.AggR.lean ====
/-
  Neighbour aggregation: what both programs compute on the host before each layer.

  The edge table e [2, 1600000] holds, per edge, a source node (row 0) and a destination node (row 1).
  The aggregate of node features h [100000, D] is, at node v, the sum over the edges that end in v of the
  source's row of h: the sources' rows are gathered per edge, and the gathered rows are added into a zero
  array at the destinations' rows.  A negative source index counts from the end (100000 is added to it).

  The chain is carried as ONE function of (h, e) and never opened: the two programs apply the same
  operations to the same arguments, so whatever the gather and the scattered sum do with an index out of
  range, or with a sum in any order, they do it alike on both sides.  This module spells the chain with the
  reference program's own dimension records.
-/
import proofs.«179363_j20005957664840_1_alg».proof.Proof.Gen.ReferenceIdeal

noncomputable section

namespace Cert.ReferenceIdeal.Agg

open Idealize.ShloMosaic Cert.ReferenceIdeal Cert.ReferenceIdeal.Gen

variable {F : FTy → Type} [FloatOps F]

/-- Row 0 of the edge table: the edges' source nodes. -/
def src (e : IVec S2x1600000 32) : IVec S1600000 32 :=
  shapeCast S1600000 (extractStridedSlice S1x1600000 ![0, 0] e slices_S2x1600000_S1x1600000_0_0) shapeCasts_S1x1600000_S1600000

/-- Row 1 of the edge table: the edges' destination nodes. -/
def dst (e : IVec S2x1600000 32) : IVec S1600000 32 :=
  shapeCast S1600000 (extractStridedSlice S1x1600000 ![1, 0] e slices_S2x1600000_S1x1600000_1_0) shapeCasts_S1x1600000_S1600000

/-- The source indices as the gather takes them: a negative index counted from the end (+ 100000), as a column. -/
def srcCol (e : IVec S2x1600000 32) : IVec S1600000x1 32 :=
  broadcastInDim S1600000x1 ![0] bcast_S1600000_S1600000x1_0
    (select (cmpi .slt (src e) (broadcastInDim S1600000 ![] bcast_S_S1600000 (constantI S_ 32 0#32)))
      (addi (src e) (broadcastInDim S1600000 ![] bcast_S_S1600000 (constantI S_ 32 100000#32))) (src e))

/-- The destination indices as a column. -/
def dstCol (e : IVec S2x1600000 32) : IVec S1600000x1 32 :=
  broadcastInDim S1600000x1 ![0] bcast_S1600000_S1600000x1_0 (dst e)

/-- Neighbour aggregation of 128 features: the sources' rows gathered per edge and summed into the destinations' rows. -/
def agg128 (h : FVec F S100000x128 .f32) (e : IVec S2x1600000 32) : FVec F S100000x128 .f32 :=
  Host.scatterAdd scatter_S100000x128_S1600000x1_S1600000x128_1_0_0_1
    (broadcastInDim S100000x128 ![] bcast_S_S100000x128 (constant S_ .f32 0x00000000#32)) (dstCol e)
    (Host.gather gather_S100000x128_S1600000x1_S1600000x128_1_0_n_n_0_1_1128 h (srcCol e))

/-- The same of 64 features. -/
def agg64 (h : FVec F S100000x64 .f32) (e : IVec S2x1600000 32) : FVec F S100000x64 .f32 :=
  Host.scatterAdd scatter_S100000x64_S1600000x1_S1600000x64_1_0_0_1
    (broadcastInDim S100000x64 ![] bcast_S_S100000x64 (constant S_ .f32 0x00000000#32)) (dstCol e)
    (Host.gather gather_S100000x64_S1600000x1_S1600000x64_1_0_n_n_0_1_164 h (srcCol e))

end Cert.ReferenceIdeal.Agg

end
-- ==== Proof.RefRun.lean ====
/-
  The reference program's run, read back as a value.

  The reference is a straight line of host operations: its main function's own, and, at each of its four
  calls, the callee's operations over that call's buffers (the rectifier "max(x, 0)" twice, the leaky
  rectifier "x if x >= 0 else slope * x" twice, whose selection is itself a call).  Listed in order they are
  seventy operations, and the program is that list run in sequence.  Every execution therefore terminates
  with the result buffer at the operations' composed term of the ten arguments and the arguments unchanged.

  The composed term is named layer by layer: `refLayer128` and `refLayer64` are one layer's operations on
  whole arrays (node features plus aggregated neighbour features, two affine maps with a rectifier between,
  the leaky rectifier last), `refOut` the two layers in sequence, each fed its own neighbour aggregation.
-/
import proofs.«179363_j20005957664840_1_alg».proof.Proof.Gen.ReferenceIdeal
import proofs.«179363_j20005957664840_1_alg».proof.Proof.AggR
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The program as a list of operations -/

/-- The seventy operations in order, each call replaced by its callee's operations over the call's buffers. -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v13 main_v14 (addf : (⟨S100000x128, .f32⟩ : BufTy).Contents (Elt F) → (⟨S100000x128, .f32⟩ : BufTy).Contents (Elt F) → (⟨S100000x128, .f32⟩ : BufTy).Contents (Elt F)),
    StableHlo.binary main_v14 main_arg2 main_v15 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg3 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S100000x64 ![0, 1] bcast_S1x64_S100000x64_0_1 : (⟨S1x64, .f32⟩ : BufTy).Contents (Elt F) → (⟨S100000x64, .f32⟩ : BufTy).Contents (Elt F)),
    StableHlo.binary main_v15 main_v17 main_v18 (addf : (⟨S100000x64, .f32⟩ : BufTy).Contents (Elt F) → (⟨S100000x64, .f32⟩ : BufTy).Contents (Elt F) → (⟨S100000x64, .f32⟩ : BufTy).Contents (Elt F)),
    TRef.nullary main_call0.cst (constant S_ .f32 0x00000000#32),
    TRef.unary main_call0.cst main_call0.v0 (broadcastInDim S100000x64 ![] bcast_S_S100000x64),
    TRef.binary (.of main_v18) main_call0.v0 main_call0.v1 maximumf,
    StableHlo.binary main_v19 main_arg4 main_v20 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v21 (broadcastInDim S1x64 ![1] bcast_S64_S1x64_1 : (⟨S64, .f32⟩ : BufTy).Contents (Elt F) → (⟨S1x64, .f32⟩ : BufTy).Contents (Elt F)),
    StableHlo.unary main_v21 main_v22 (broadcastInDim S100000x64 ![0, 1] bcast_S1x64_S100000x64_0_1 : (⟨S1x64, .f32⟩ : BufTy).Contents (Elt F) → (⟨S100000x64, .f32⟩ : BufTy).Contents (Elt F)),
    StableHlo.binary main_v20 main_v22 main_v23 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x3C23D70A#32),
    TRef.nullary main_call1.cst (constant S_ .f32 0x00000000#32),
    TRef.unary main_call1.cst main_call1.v0 (broadcastInDim S100000x64 ![] bcast_S_S100000x64),
    TRef.binary (.of main_v23) main_call1.v0 main_call1.v1 (cmpf .oge),
    TRef.unary (.of main_cst_1) main_call1.v2 id,
    TRef.unary main_call1.v2 main_call1.v3 (broadcastInDim S100000x64 ![] bcast_S_S100000x64),
    TRef.binary main_call1.v3 (.of main_v23) main_call1.v4 mulf,
    TRef.ternary main_call1.v1 (.of main_v23) main_call1.v4 main_call1.call0.v0 select,
    StableHlo.nullary main_c_2 (constantI S_ 32 0#32),
    StableHlo.unary main_c_2 main_v25 (broadcastInDim S1600000 ![] bcast_S_S1600000 : (⟨S_, .i32⟩ : BufTy).Contents (Elt F) → (⟨S1600000, .i32⟩ : BufTy).Contents (Elt F)),
    StableHlo.binary main_v1 main_v25 main_v26 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v27 (broadcastInDim S1600000 ![] bcast_S_S1600000 : (⟨S_, .i32⟩ : BufTy).Contents (Elt F) → (⟨S1600000, .i32⟩ : BufTy).Contents (Elt F)),
    StableHlo.binary main_v1 main_v27 main_v28 (addi : (⟨S1600000, .i32⟩ : BufTy).Contents (Elt F) → (⟨S1600000, .i32⟩ : BufTy).Contents (Elt F) → (⟨S1600000, .i32⟩ : BufTy).Contents (Elt F)),
    StableHlo.ternary main_v26 main_v28 main_v1 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v29 main_v30 (broadcastInDim S1600000x1 ![0] bcast_S1600000_S1600000x1_0 : (⟨S1600000, .i32⟩ : BufTy).Contents (Elt F) → (⟨S1600000x1, .i32⟩ : BufTy).Contents (Elt F)),
    StableHlo.binary main_v24 main_v30 main_v31 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_4 (constant S_ .f32 0x00000000#32),
    StableHlo.unary main_cst_4 main_v32 (broadcastInDim S100000x64 ![] bcast_S_S100000x64 : (⟨S_, .f32⟩ : BufTy).Contents (Elt F) → (⟨S100000x64, .f32⟩ : BufTy).Contents (Elt F)),
    StableHlo.unary main_v3 main_v33 (broadcastInDim S1600000x1 ![0] bcast_S1600000_S1600000x1_0 : (⟨S1600000, .i32⟩ : BufTy).Contents (Elt F) → (⟨S1600000x1, .i32⟩ : BufTy).Contents (Elt F)),
    StableHlo.ternary main_v32 main_v33 main_v31 main_v34 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v24 main_v34 main_v35 (addf : (⟨S100000x64, .f32⟩ : BufTy).Contents (Elt F) → (⟨S100000x64, .f32⟩ : BufTy).Contents (Elt F) → (⟨S100000x64, .f32⟩ : BufTy).Contents (Elt F)),
    StableHlo.binary main_v35 main_arg6 main_v36 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v37 (broadcastInDim S1x64 ![1] bcast_S64_S1x64_1 : (⟨S64, .f32⟩ : BufTy).Contents (Elt F) → (⟨S1x64, .f32⟩ : BufTy).Contents (Elt F)),
    StableHlo.unary main_v37 main_v38 (broadcastInDim S100000x64 ![0, 1] bcast_S1x64_S100000x64_0_1 : (⟨S1x64, .f32⟩ : BufTy).Contents (Elt F) → (⟨S100000x64, .f32⟩ : BufTy).Contents (Elt F)),
    StableHlo.binary main_v36 main_v38 main_v39 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (.of main_v39) main_call2.v0 main_call2.v1 maximumf,
    StableHlo.binary main_v40 main_arg8 main_v41 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v42 (broadcastInDim S1x64 ![1] bcast_S64_S1x64_1 : (⟨S64, .f32⟩ : BufTy).Contents (Elt F) → (⟨S1x64, .f32⟩ : BufTy).Contents (Elt F)),
    StableHlo.unary main_v42 main_v43 (broadcastInDim S100000x64 ![0, 1] bcast_S1x64_S100000x64_0_1 : (⟨S1x64, .f32⟩ : BufTy).Contents (Elt F) → (⟨S100000x64, .f32⟩ : BufTy).Contents (Elt F)),
    StableHlo.binary main_v41 main_v43 main_v44 (addf : (⟨S100000x64, .f32⟩ : BufTy).Contents (Elt F) → (⟨S100000x64, .f32⟩ : BufTy).Contents (Elt F) → (⟨S100000x64, .f32⟩ : BufTy).Contents (Elt F)),
    StableHlo.nullary main_cst_5 (constant S_ .f32 0x3C23D70A#32),
    TRef.nullary main_call3.cst (constant S_ .f32 0x00000000#32),
    TRef.unary main_call3.cst main_call3.v0 (broadcastInDim S100000x64 ![] bcast_S_S100000x64),
    TRef.binary (.of main_v44) main_call3.v0 main_call3.v1 (cmpf .oge),
    TRef.unary (.of main_cst_5) main_call3.v2 id,
    TRef.unary main_call3.v2 main_call3.v3 (broadcastInDim S100000x64 ![] bcast_S_S100000x64),
    TRef.binary main_call3.v3 (.of main_v44) main_call3.v4 mulf,
    TRef.ternary main_call3.v1 (.of main_v44) main_call3.v4 main_call3.call0.v0 select ]

-- both sides compute to one chain of seventy steps: the callees' bodies unfold at their calls
set_option maxRecDepth 8192 in
set_option maxHeartbeats 1000000 in
/-- The main function is that straight line: the callees unfolded at their calls, sequencing re-associated. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub ..⟩

/-! ## The composed value -/

/-- The zero word at every entry of a [100000, 64] array. -/
def zeros64 : FVec F S100000x64 .f32 :=
  broadcastInDim S100000x64 ![] bcast_S_S100000x64 (constant S_ .f32 0x00000000#32)

/-- The rectifier: the entrywise maximum with zero. -/
def relu (x : FVec F S100000x64 .f32) : FVec F S100000x64 .f32 := maximumf x zeros64

/-- The leaky rectifier with slope word `s`: `x` where `x ≥ 0`, else `s · x`. -/
def leaky (x : FVec F S100000x64 .f32) (s : FVec F S_ .f32) : FVec F S100000x64 .f32 :=
  select (cmpf .oge x zeros64) x (mulf (broadcastInDim S100000x64 ![] bcast_S_S100000x64 (id s)) x)

/-- A bias vector [64] as a row [1, 64], repeated down the 100000 rows. -/
def bias (b : FVec F S64 .f32) : FVec F S100000x64 .f32 :=
  broadcastInDim S100000x64 ![0, 1] bcast_S1x64_S100000x64_0_1 (broadcastInDim S1x64 ![1] bcast_S64_S1x64_1 b)

/-- The slope of the leaky rectifier: the single-precision word nearest 0.01, as a scalar. -/
def slopeWord : FVec F S_ .f32 := constant S_ .f32 0x3C23D70A#32

/-- The first layer on whole arrays: the features plus their aggregate, through the first affine map, the
    rectifier, the second affine map and the leaky rectifier. -/
def refLayer128 (h agg : FVec F S100000x128 .f32) (Wa : FVec F S128x64 .f32) (ba : FVec F S64 .f32)
    (Wb : FVec F S64x64 .f32) (bb : FVec F S64 .f32) : FVec F S100000x64 .f32 :=
  leaky (addf (Host.dotGeneral dot_S100000x64_S64x64_S100000x64_1_0_0_1_n_n none
      (relu (addf (Host.dotGeneral dot_S100000x128_S128x64_S100000x64_1_0_0_1_n_n none (addf h agg) Wa) (bias ba))) Wb)
    (bias bb)) slopeWord

/-- The second layer: the same over 64 input features. -/
def refLayer64 (h agg : FVec F S100000x64 .f32) (Wa : FVec F S64x64 .f32) (ba : FVec F S64 .f32)
    (Wb : FVec F S64x64 .f32) (bb : FVec F S64 .f32) : FVec F S100000x64 .f32 :=
  leaky (addf (Host.dotGeneral dot_S100000x64_S64x64_S100000x64_1_0_0_1_n_n none
      (relu (addf (Host.dotGeneral dot_S100000x64_S64x64_S100000x64_1_0_0_1_n_n none (addf h agg) Wa) (bias ba))) Wb)
    (bias bb)) slopeWord

/-- The whole reference: the two layers in sequence, each fed the neighbour aggregate of its own input. -/
def refOut (h : FVec F S100000x128 .f32) (e : IVec S2x1600000 32) (W1a : FVec F S128x64 .f32) (b1a : FVec F S64 .f32)
    (W1b : FVec F S64x64 .f32) (b1b : FVec F S64 .f32) (W2a : FVec F S64x64 .f32) (b2a : FVec F S64 .f32)
    (W2b : FVec F S64x64 .f32) (b2b : FVec F S64 .f32) : FVec F S100000x64 .f32 :=
  refLayer64 (refLayer128 h (Agg.agg128 h e) W1a b1a W1b b1b) (Agg.agg64 (refLayer128 h (Agg.agg128 h e) W1a b1a W1b b1b) e)
    W2a b2a W2b b2b

/-! ## The fold at the result and at the arguments -/

attribute [local irreducible] Host.gather Host.scatterAdd in
set_option maxRecDepth 8192 in
set_option maxHeartbeats 2000000 in
/-- After the seventy operations the result buffer holds `refOut` of the arguments' contents: each operation's
    result read at its own buffer, every other buffer as it was. -/
theorem out_eq (V : Valuation τ sig (Elt F)) :
    after ops V (main_v45 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  after_results_simp
  rfl

/-- No operation writes an argument's buffer: each keeps its contents. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

/-! ## The run -/

/-- On every device, for any float values, from any memory with zero counters: every weakly fair execution of the
    main function terminates with the result buffer at `refOut` of the ten arguments' launch contents and the ten
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45)
        = refOut (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v45).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.RefValue

end
-- ==== Proof.LibHostDot.lean ====
/-
  A plain host matrix product read at an index, generic in the three extents.

  For the dimension numbers "rows × contraction times contraction × columns" (`DotDims.plain M K N`: no
  batch axis, the left operand contracted on its last axis, the right on its first), at the ideal values —
  floats extended reals, every operation exact — the host program's `dot_general`, read at the output index
  (r, c), is the plain sum over k of lhs (r, k) · rhs (k, c): it has no accumulator, and no rounding and no
  summation order is left in it.  The contraction index, a one-axis multi-index, is re-indexed by its one
  coordinate, as for the kernel-side product into a zero accumulator (`Cert.Lib.PlainDot`).
-/
import proofs.«179363_j20005957664840_1_alg».proof.Proof.LibPlainDot

noncomputable section

namespace Cert.Lib.HostDot

open Idealize.ShloMosaic Idealize.ShloMosaic.ValueIdx

variable {M K N : Nat}

/-- A plain host `dot_general`, at the ideal values, read at (r, c): the sum over k of lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (F := Ideal) (DotDims.plain M K N) prec lhs rhs (ix2 r c)
      = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [Cert.Lib.PlainDot.lhsIdx_plain, Cert.Lib.PlainDot.rhsIdx_plain]

end Cert.Lib.HostDot

end
-- ==== Proof.RefLayer.lean ====
/-
  One layer of the reference, on whole arrays, is the layer of the shared specification.

  The reference computes a layer with array operations: the sum h + agg, a matrix product with Wa, a bias row
  repeated down the rows, the entrywise maximum with a zero array, a second product and bias, and the leaky
  rectifier as a selection on "x ≥ 0" between x and slope · x.  Read at one entry (r, c) at the ideal values,
  each of these is the textbook operation on extended reals: a zero array reads 0, a repeated bias row reads the
  bias at its column, a plain matrix product reads the sum over the contracted axis, and the selection is an
  `if`.  The weak comparison the reference uses and the strict one of the specification give the same function
  (`Cert.Gin.leaky_ge`: they differ only at zero, where slope · 0 = 0).
-/
import proofs.«179363_j20005957664840_1_alg».proof.Proof.RefRun
import proofs.«179363_j20005957664840_1_alg».proof.Proof.LayerSpec
import proofs.«179363_j20005957664840_1_alg».proof.Proof.LibHostDot
import Idealize.ShloMosaic.Lib.ValueIdx
import Idealize.ShloMosaic.Lib.Pipeline.Value
import Idealize.ShloMosaic.PureOps.Ideal.Laws

noncomputable section

namespace Cert.ReferenceIdeal.RefLayer

open Idealize.ShloMosaic Idealize.ShloMosaic.ValueIdx Cert.ReferenceIdeal Cert.ReferenceIdeal.Gen

/-! ## The pieces read at an entry -/

/-- The zero array reads the extended real 0 everywhere. -/
theorem zeros64_apply (i : S100000x64.Idx) : RefValue.zeros64 (F := Ideal) i = 0 :=
  Ideal.ofBits_zero_f32

/-- The rectifier at an entry is the maximum with 0. -/
theorem relu_apply (x : FVec Ideal S100000x64 .f32) (i : S100000x64.Idx) :
    RefValue.relu x i = max (x i) 0 := by
  show max (x i) (RefValue.zeros64 (F := Ideal) i) = _
  rw [zeros64_apply]

/-- A bias vector repeated down the rows reads, at (r, c), the bias at c. -/
theorem bias_apply (b : FVec Ideal S64 .f32) (r : Fin 100000) (c : Fin 64) :
    RefValue.bias b (ix2 r c) = b (ix1 c) := by
  unfold RefValue.bias
  refine (broadcastInDim_apply _ _ _ (ix2 r c) (ix2 (0 : Fin 1) c) (fun a => ?_)).trans ?_
  · match a with
    | ⟨0, _⟩ => rfl
    | ⟨1, _⟩ => rfl
  · refine broadcastInDim_apply _ _ _ (ix2 (0 : Fin 1) c) (ix1 c) (fun a => ?_)
    match a with
    | ⟨0, _⟩ => rfl

/-- The comparison "x ≥ 0" as a one-bit word. -/
theorem cmp_oge_zero (a : EReal) : Ideal.cmp .oge a 0 = if 0 ≤ a then 1#1 else 0#1 := by
  unfold Ideal.cmp
  by_cases h : (0 : EReal) ≤ a
  · rw [if_pos h, decide_eq_true h]; rfl
  · rw [if_neg h, decide_eq_false h]; rfl

/-- The reference's leaky rectifier at an entry is the specification's: the selection on "x ≥ 0" is the `if`, and
    the weak and the strict comparison give the same function. -/
theorem leaky_apply (x : FVec Ideal S100000x64 .f32) (i : S100000x64.Idx) :
    RefValue.leaky x RefValue.slopeWord i = Cert.Gin.leaky (x i) := by
  rw [← Cert.Gin.leaky_ge]
  show Scalar.select (Ideal.cmp .oge (x i) (RefValue.zeros64 (F := Ideal) i)) (x i) (Cert.Gin.slope * x i) = _
  rw [zeros64_apply, cmp_oge_zero]
  by_cases h : (0 : EReal) ≤ x i
  · rw [if_pos h, if_pos h, select_one]
  · rw [if_neg h, if_neg h, select_zero]

/-! ## A layer -/

/-- A layer over D input features, spelt with the plain dimension numbers, is the specification's layer. -/
theorem layer_core {D : Nat} (h agg : FVec Ideal ⟨2, ![100000, D]⟩ .f32) (Wa : FVec Ideal ⟨2, ![D, 64]⟩ .f32)
    (ba : FVec Ideal S64 .f32) (Wb : FVec Ideal S64x64 .f32) (bb : FVec Ideal S64 .f32) :
    RefValue.leaky (addf (Host.dotGeneral (F := Ideal) (DotDims.plain 100000 64 64) none
          (RefValue.relu (addf (Host.dotGeneral (F := Ideal) (DotDims.plain 100000 D 64) none (addf h agg) Wa)
            (RefValue.bias ba))) Wb)
        (RefValue.bias bb)) RefValue.slopeWord
      = Cert.Gin.layer h agg Wa ba Wb bb := by
  funext i
  obtain ⟨r, c, rfl⟩ : ∃ (r : Fin 100000) (c : Fin 64), i = ix2 r c := ⟨i 0, i 1, eq_ix2 i⟩
  rw [Cert.Gin.layer_apply, leaky_apply]
  unfold Cert.Gin.row
  refine congrArg Cert.Gin.leaky ?_
  -- the second affine map
  refine (addf_apply _ _ _).trans ?_
  rw [bias_apply, Cert.Lib.HostDot.dotGeneral_plain_apply]
  unfold Cert.Gin.pre
  refine congrArg (· + bb (ix1 c)) (Finset.sum_congr rfl fun k _ => ?_)
  refine congrArg (· * Wb (ix2 k c)) ?_
  -- the rectified first affine map
  rw [relu_apply]
  unfold Cert.Gin.hidden
  refine congrArg (max · 0) ?_
  refine (addf_apply _ _ _).trans ?_
  rw [bias_apply, Cert.Lib.HostDot.dotGeneral_plain_apply]
  rfl

/-- The reference's first layer is the specification's layer over 128 input features. -/
theorem refLayer128_eq (h agg : FVec Ideal S100000x128 .f32) (Wa : FVec Ideal S128x64 .f32) (ba : FVec Ideal S64 .f32)
    (Wb : FVec Ideal S64x64 .f32) (bb : FVec Ideal S64 .f32) :
    RefValue.refLayer128 (F := Ideal) h agg Wa ba Wb bb = Cert.Gin.layer h agg Wa ba Wb bb :=
  layer_core h agg Wa ba Wb bb

/-- The reference's second layer is the specification's layer over 64 input features. -/
theorem refLayer64_eq (h agg : FVec Ideal S100000x64 .f32) (Wa : FVec Ideal S64x64 .f32) (ba : FVec Ideal S64 .f32)
    (Wb : FVec Ideal S64x64 .f32) (bb : FVec Ideal S64 .f32) :
    RefValue.refLayer64 (F := Ideal) h agg Wa ba Wb bb = Cert.Gin.layer h agg Wa ba Wb bb :=
  layer_core h agg Wa ba Wb bb

end Cert.ReferenceIdeal.RefLayer

end
-- ==== Proof.lean ====
/-
  The certificate: a two-layer graph network, the kernel program against its reference, at the ideal values.

  Both programs compute, twice over, a layer: the node features h plus the neighbour aggregate of h over the
  edge table, through two affine maps with a rectifier between them and a leaky rectifier after.  The
  aggregate (the sources' rows gathered per edge and summed into the destinations' rows) is the same host
  operations in both programs and is carried as one function, never opened.  The kernel program runs the rest
  of a layer as a kernel launched over 20 blocks of 5000 rows, rounding the matrix products' operands to half
  precision; the reference runs it as whole-array host operations.  At the ideal values (floats extended
  reals, every operation exact, a change of format the identity) a layer's entry (r, c) is on both sides the
  same expression of row r of h + agg (`Cert.Gin.row`): the products are the same sums, term by term in the
  same order, and the only difference is the leaky rectifier's comparison, strict in the kernel and weak in the
  reference, which matters only at zero, where slope * 0 = 0.  No law of arithmetic beyond that is used, and
  the finiteness of the inputs is not needed.

  * the frames of the two kernel programs are the generated ones; the reference's is its run with the result
    dropped;
  * the idealization rewrote nothing, so `preserves` is trivial;
  * `algebraic`: the kernel program's result buffer ends at the two layers of the arguments
    (`KValue.run_all`, `KValue.result_eq`), the reference's at its own composed term (`RefValue.run`), which
    is the same two layers (`refOut_eq`).
-/
import proofs.«179363_j20005957664840_1_alg».proof.Defs
import proofs.«179363_j20005957664840_1_alg».proof.Proof.Gen.Kernel
import proofs.«179363_j20005957664840_1_alg».proof.Proof.Gen.Kernel.Frame
import proofs.«179363_j20005957664840_1_alg».proof.Proof.Gen.KernelIdeal
import proofs.«179363_j20005957664840_1_alg».proof.Proof.Gen.KernelIdeal.Frame
import proofs.«179363_j20005957664840_1_alg».proof.Proof.Gen.ReferenceIdeal
import proofs.«179363_j20005957664840_1_alg».proof.Proof.Gen.Pre_finite_inputs
import proofs.«179363_j20005957664840_1_alg».proof.Proof.KernelRun
import proofs.«179363_j20005957664840_1_alg».proof.Proof.KernelChain
import proofs.«179363_j20005957664840_1_alg».proof.Proof.AggK
import proofs.«179363_j20005957664840_1_alg».proof.Proof.AggR
import proofs.«179363_j20005957664840_1_alg».proof.Proof.RefRun
import proofs.«179363_j20005957664840_1_alg».proof.Proof.RefLayer
import Idealize.ShloMosaic.Adequacy
import Idealize.ShloMosaic.Init

noncomputable section

namespace Cert.Proof

open Idealize.ShloMosaic Idealize.SL.Sem

/-! ## The frames and the idealization -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.RefValue.run (F := Ideal) m ρ)
theorem preserves : Cert.preserves_Kernel_KernelIdeal := trivial

/-! ## The two programs' results are one function of the arguments -/

/-- The neighbour aggregate is spelt once with each program's dimension records; the two spellings are the
    same operations on the same shapes. -/
theorem agg128_eq : @Cert.ReferenceIdeal.Agg.agg128 Ideal _ = @Cert.KernelIdeal.Agg.agg128 Ideal _ := rfl
theorem agg64_eq : @Cert.ReferenceIdeal.Agg.agg64 Ideal _ = @Cert.KernelIdeal.Agg.agg64 Ideal _ := rfl

/-- The reference's composed term is the two layers of the specification: each of its layers is the
    specification's layer, and its aggregates are the kernel program's. -/
theorem refOut_eq (h : FVec Ideal Cert.KernelIdeal.S100000x128 .f32) (e : IVec Cert.KernelIdeal.S2x1600000 32)
    (W1a : FVec Ideal Cert.KernelIdeal.S128x64 .f32) (b1a : FVec Ideal Cert.KernelIdeal.S64 .f32)
    (W1b : FVec Ideal Cert.KernelIdeal.S64x64 .f32) (b1b : FVec Ideal Cert.KernelIdeal.S64 .f32)
    (W2a : FVec Ideal Cert.KernelIdeal.S64x64 .f32) (b2a : FVec Ideal Cert.KernelIdeal.S64 .f32)
    (W2b : FVec Ideal Cert.KernelIdeal.S64x64 .f32) (b2b : FVec Ideal Cert.KernelIdeal.S64 .f32) :
    Cert.ReferenceIdeal.RefValue.refOut (F := Ideal) h e W1a b1a W1b b1b W2a b2a W2b b2b
      = Cert.KernelIdeal.KValue.out h e W1a b1a W1b b1b W2a b2a W2b b2b := by
  unfold Cert.ReferenceIdeal.RefValue.refOut Cert.KernelIdeal.KValue.out
  rw [Cert.ReferenceIdeal.RefLayer.refLayer128_eq, Cert.ReferenceIdeal.RefLayer.refLayer64_eq, agg128_eq, agg64_eq]

/-! ## The value claim -/

/-- From memories that agree on the arguments both programs run, and both result buffers end at the two
    layers of the arguments. -/
theorem algebraic : Cert.algebraic_KernelIdeal_ReferenceIdeal := by
  intro m ρ m' ρ' _ hagree
  refine ⟨fun c => Cert.KernelIdeal.KValue.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c =>
      ⟨(h c _ (Cert.KernelIdeal.Gen.mem_uc Cert.KernelIdeal.main_v29 (by decide))).trans (Cert.KernelIdeal.KValue.result_eq m ρ c),
       (h c _ (Cert.KernelIdeal.Gen.mem_uc Cert.KernelIdeal.main_arg0 (by decide))).trans (Cert.KernelIdeal.Gen.W4_main_arg0 m ρ c),
       (h c _ (Cert.KernelIdeal.Gen.mem_uc Cert.KernelIdeal.main_arg1 (by decide))).trans (Cert.KernelIdeal.Gen.W4_main_arg1 m ρ c),
       (h c _ (Cert.KernelIdeal.Gen.mem_uc Cert.KernelIdeal.main_arg2 (by decide))).trans (Cert.KernelIdeal.Gen.W4_main_arg2 m ρ c),
       (h c _ (Cert.KernelIdeal.Gen.mem_uc Cert.KernelIdeal.main_arg3 (by decide))).trans (Cert.KernelIdeal.Gen.W4_main_arg3 m ρ c),
       (h c _ (Cert.KernelIdeal.Gen.mem_uc Cert.KernelIdeal.main_arg4 (by decide))).trans (Cert.KernelIdeal.Gen.W4_main_arg4 m ρ c),
       (h c _ (Cert.KernelIdeal.Gen.mem_uc Cert.KernelIdeal.main_arg5 (by decide))).trans (Cert.KernelIdeal.Gen.W4_main_arg5 m ρ c),
       (h c _ (Cert.KernelIdeal.Gen.mem_uc Cert.KernelIdeal.main_arg6 (by decide))).trans (Cert.KernelIdeal.Gen.W4_main_arg6 m ρ c),
       (h c _ (Cert.KernelIdeal.Gen.mem_uc Cert.KernelIdeal.main_arg7 (by decide))).trans (Cert.KernelIdeal.Gen.W4_main_arg7 m ρ c),
       (h c _ (Cert.KernelIdeal.Gen.mem_uc Cert.KernelIdeal.main_arg8 (by decide))).trans (Cert.KernelIdeal.Gen.W4_main_arg8 m ρ c),
       (h c _ (Cert.KernelIdeal.Gen.mem_uc Cert.KernelIdeal.main_arg9 (by decide))).trans (Cert.KernelIdeal.Gen.W4_main_arg9 m ρ c)⟩)
      (Cert.KernelIdeal.KValue.run_all (F := Ideal) m ρ)
  · refine (θ_run Cert.ReferenceIdeal.defs _ _).mono (fun r h c => ⟨(h c).1.trans ?_, (h c).2⟩)
      (Cert.ReferenceIdeal.RefValue.run (F := Ideal) m' ρ')
    obtain ⟨a0, a1, a2, a3, a4, a5, a6, a7, a8, a9⟩ := hagree c
    rw [a0, a1, a2, a3, a4, a5, a6, a7, a8, a9]
    exact refOut_eq _ _ _ _ _ _ _ _ _ _

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
